-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S128x1024 : Shape := ⟨2, ![128, 1024]⟩
abbrev S128 : Shape := ⟨1, ![128]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S65536x1024 .f32) (main_arg1 : FVec F S65536x1024 .f32) (main_arg2 : FVec F S128x1024 .f32) (main_arg3 : FVec F S128 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S65536x1024 : Shape := ⟨2, ![65536, 1024]⟩
abbrev S128x1024 : Shape := ⟨2, ![128, 1024]⟩
abbrev S128 : Shape := ⟨1, ![128]⟩
abbrev S1024x128 : Shape := ⟨2, ![1024, 128]⟩
abbrev S1x128 : Shape := ⟨2, ![1, 128]⟩
abbrev S512x128 : Shape := ⟨2, ![512, 128]⟩
abbrev S2048x1024 : Shape := ⟨2, ![2048, 1024]⟩
abbrev S16x128 : Shape := ⟨2, ![16, 128]⟩
abbrev S1024x1024 : Shape := ⟨2, ![1024, 1024]⟩
abbrev S1024 : Shape := ⟨1, ![1024]⟩
abbrev S8x128 : Shape := ⟨2, ![8, 128]⟩
abbrev S65536 : Shape := ⟨1, ![65536]⟩

abbrev nBuf : Space → Nat
  | .hbm => 8
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S128x1024, .f32⟩
  | .hbm, ⟨3, _⟩ => ⟨S128, .f32⟩
  | .hbm, ⟨4, _⟩ => ⟨S1024x128, .f32⟩
  | .hbm, ⟨5, _⟩ => ⟨S1x128, .f32⟩
  | .hbm, ⟨6, _⟩ => ⟨S512x128, .f32⟩
  | .hbm, ⟨7, _⟩ => ⟨S65536, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x128, .f32⟩
  | .local _ .vmem, ⟨5, _⟩ => ⟨S1x128, .f32⟩
  | .local _ .vmem, ⟨6, _⟩ => ⟨S16x128, .f32⟩
  | .local _ .vmem, ⟨7, _⟩ => ⟨S16x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x1024_S1024x128_1_0 : S128x1024.Transposes [1, 0] S1024x128
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2048x1024_S1024x1024_0_0 : ∀ a, (![0, 0] : Fin 2 → Nat) a + S1024x1024.size a ≤ S2048x1024.size a
  h_S1024x1024 : 0 < S1024x1024.numel
  broadcasts_S1x128_S1024x128 : S1x128.Broadcasts S1024x128
  reduces_S1024x128_S1024 : S1024x128.Reduces [1] S1024
  shapeCasts_S1024_S8x128 : S1024.ShapeCasts S8x128
  inb_S16x128_S8x128_0_0 : ∀ a, (![0, 0] : Fin 2 → Nat) a + S8x128.size a ≤ S16x128.size a
  h_S8x128 : 0 < S8x128.numel
  inb_S2048x1024_S1024x1024_1024_0 : ∀ a, (![1024, 0] : Fin 2 → Nat) a + S1024x1024.size a ≤ S2048x1024.size a
  inb_S16x128_S8x128_8_0 : ∀ a, (![8, 0] : Fin 2 → Nat) a + S8x128.size a ≤ S16x128.size a
  shapeCasts_S512x128_S65536 : S512x128.ShapeCasts S65536
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S65536x1024.size a
  hwx0_1 : ∀ i : grid0.Coords, EltTy.bits .f32 = 32 ∨ (Rect.block (s := S65536x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S512x128.size a
  hwx0_4 : ∀ i : grid0.Coords, EltTy.bits .f32 = 32 ∨ (Rect.block (s := S512x128) S16x128.size (cc0_transform_4 i) (hinb0_4 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S16x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S128x1024 : Shape := ⟨2, ![128, 1024]⟩
abbrev S128 : Shape := ⟨1, ![128]⟩
abbrev S1024x128 : Shape := ⟨2, ![1024, 128]⟩
abbrev S65536x128 : Shape := ⟨2, ![65536, 128]⟩
abbrev S1x128 : Shape := ⟨2, ![1, 128]⟩
abbrev S_ : Shape := ⟨0, ![]⟩
abbrev S65536 : Shape := ⟨1, ![65536]⟩

abbrev nBuf : Space → Nat
  | .hbm => 27
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S128x1024, .f32⟩
  | .hbm, ⟨3, _⟩ => ⟨S128, .f32⟩
  | .hbm, ⟨4, _⟩ => ⟨S1024x128, .f32⟩
  | .hbm, ⟨5, _⟩ => ⟨S65536x128, .f32⟩
  | .hbm, ⟨6, _⟩ => ⟨S1x128, .f32⟩
  | .hbm, ⟨7, _⟩ => ⟨S65536x128, .f32⟩
  | .hbm, ⟨8, _⟩ => ⟨S65536x128, .f32⟩
  | .hbm, ⟨9, _⟩ => ⟨S65536x128, .f32⟩
  | .hbm, ⟨10, _⟩ => ⟨S1024x128, .f32⟩
  | .hbm, ⟨11, _⟩ => ⟨S65536x128, .f32⟩
  | .hbm, ⟨12, _⟩ => ⟨S1x128, .f32⟩
  | .hbm, ⟨13, _⟩ => ⟨S65536x128, .f32⟩
  | .hbm, ⟨14, _⟩ => ⟨S65536x128, .f32⟩
  | .hbm, ⟨15, _⟩ => ⟨S65536x128, .f32⟩
  | .hbm, ⟨16, _⟩ => ⟨S65536x128, .f32⟩
  | .hbm, ⟨17, _⟩ => ⟨S_, .f32⟩
  | .hbm, ⟨18, _⟩ => ⟨S65536, .f32⟩
  | .hbm, ⟨19, _⟩ => ⟨S65536, .f32⟩
  | .hbm, ⟨20, _⟩ => ⟨S65536, .f32⟩
  | .hbm, ⟨21, _⟩ => ⟨S_, .f32⟩
  | .hbm, ⟨22, _⟩ => ⟨S65536, .f32⟩
  | .hbm, ⟨23, _⟩ => ⟨S65536, .f32⟩
  | .hbm, ⟨24, _⟩ => ⟨S_, .f32⟩
  | .hbm, ⟨25, _⟩ => ⟨S65536, .f32⟩
  | .hbm, ⟨26, _⟩ => ⟨S65536, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  transposes_S128x1024_S1024x128_1_0 : S128x1024.Transposes [1, 0] S1024x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  reducesTo_S65536x128_S65536_d1 : S65536x128.ReducesTo [1] S65536
  h_S_ : 0 < S_.numel
  bcast_S_S65536 : S_.BroadcastsInDim S65536 (![] : Fin 0 → Fin S65536.rank)
  dot_S65536x1024_S1024x128_S65536x128_1_0_0_1_n_n_wf : DotDims.WF S65536x1024 S1024x128 S65536x128 [1] [0] [0] [1] [] []

variable [Facts₀]

def dot_S65536x1024_S1024x128_S65536x128_1_0_0_1_n_n : DotDims S65536x1024 S1024x128 S65536x128 where
  lhsContracting := [1]
  rhsContracting := [0]
  lhsNonContracting := [0]
  rhsNonContracting := [1]
  lhsBatch := []
  rhsBatch := []
  wf := dot_S65536x1024_S1024x128_S65536x128_1_0_0_1_n_n_wf

class Facts : Prop extends Facts₀ where

variable [Facts]
-- ==== Proof.Score.lean ====
/-
  The function of one batch row that both programs compute, over the extended reals.

  A row carries two feature vectors a¹, a² of length 1024. With a weight matrix w (1024 × 128, the
  projection already transposed so that its first axis is the contracted one) and a bias β of length 128,
  each vector is projected and squashed,
      h(a)_j = tanh( Σ_k a_k · w_{k j} + β_j ),          j < 128,
  the two projections are compared by their inner product, and the result is passed through the logistic
  function,
      score(a¹, a², w, β) = σ( Σ_j h(a¹)_j · h(a²)_j ),     σ(s) = 1 / (1 + e^{-s}).
  Nothing here is rearranged between the two programs: the sums run over the same index sets in the same
  roles, so no law that needs finiteness (distributivity, cancellation) is used anywhere.
-/
import Idealize.ShloMosaic.PureOps.Ideal
import Idealize.ShloMosaic.PureOps.Ideal.Laws
import Idealize.ShloMosaic.Lib.ValueIdx

noncomputable section

namespace Cert.Score

open Idealize.ShloMosaic
open scoped BigOperators

/-- One squashed projection coordinate: tanh( Σ_k a_k · w_{k j} + β_j ). -/
def hidden (a : Fin 1024 → EReal) (w : Fin 1024 → Fin 128 → EReal) (β : Fin 128 → EReal) (j : Fin 128) : EReal :=
  Ideal.tanh ((∑ k : Fin 1024, a k * w k j) + β j)

/-- The logistic of the inner product of the two squashed projections of a row. -/
def score (a1 a2 : Fin 1024 → EReal) (w : Fin 1024 → Fin 128 → EReal) (β : Fin 128 → EReal) : EReal :=
  Ideal.logistic (∑ j : Fin 128, hidden a1 w β j * hidden a2 w β j)

/-- The score depends on its four arguments only through their values. -/
theorem score_congr {a1 a2 b1 b2 : Fin 1024 → EReal} {w w' : Fin 1024 → Fin 128 → EReal} {β β' : Fin 128 → EReal}
    (h1 : ∀ k, a1 k = b1 k) (h2 : ∀ k, a2 k = b2 k) (hw : ∀ k j, w k j = w' k j) (hβ : ∀ j, β j = β' j) :
    score a1 a2 w β = score b1 b2 w' β' := by
  have e1 : a1 = b1 := funext h1
  have e2 : a2 = b2 := funext h2
  have ew : w = w' := funext fun k => funext (hw k)
  have eβ : β = β' := funext hβ
  rw [e1, e2, ew, eβ]

/-- Row n of the result, from the four argument arrays: the two inputs x¹, x² (65536 × 1024), the projection
    matrix W as given (128 × 1024, so w_{k j} = W[j, k]) and the bias b (128):
        out[n] = score( x¹[n, ·], x²[n, ·], (k, j) ↦ W[j, k], b ). -/
def rowResult (x1 x2 : (⟨2, ![65536, 1024]⟩ : Shape).Idx → EReal) (W : (⟨2, ![128, 1024]⟩ : Shape).Idx → EReal)
    (b : (⟨1, ![128]⟩ : Shape).Idx → EReal) (n : Fin 65536) : EReal :=
  score (fun k => x1 (ValueIdx.ix2 n k)) (fun k => x2 (ValueIdx.ix2 n k)) (fun k j => W (ValueIdx.ix2 j k)) (fun j => b (ValueIdx.ix1 j))

/-- The whole result, a vector of 65536 entries, one per batch row. -/
def result (x1 x2 : (⟨2, ![65536, 1024]⟩ : Shape).Idx → EReal) (W : (⟨2, ![128, 1024]⟩ : Shape).Idx → EReal)
    (b : (⟨1, ![128]⟩ : Shape).Idx → EReal) : (⟨1, ![65536]⟩ : Shape).Idx → EReal :=
  fun i => rowResult x1 x2 W b ⟨(i 0).val, (i 0).isLt⟩

/-- The single-precision pattern of 1.0 denotes the real number one. -/
theorem ofBits_one : Ideal.ofBits .f32 0x3F800000#32 = 1 := by
  simp [Ideal.ofBits, Ideal.ieee, -EReal.coe_mul]; norm_num

/-- The logistic function written out as the quotient 1 / (1 + e^{-s}), with the constant one spelled as its
    single-precision pattern and the zero the sum starts from as its own: it is the logistic of the sum. -/
theorem quotient_eq_logistic (s : EReal) :
    Ideal.div (Ideal.ofBits .f32 0x3F800000#32)
        (Ideal.ofBits .f32 0x3F800000#32 + Ideal.exp (-(Ideal.ofBits .f32 0x00000000#32 + s)))
      = Ideal.logistic s := by
  rw [ofBits_one, Ideal.ofBits_zero_f32, zero_add]
  rfl

end Cert.Score

end
-- ==== Proof.LibMatmul.lean ====
/-
  A row-by-column matrix product into a zero accumulator, read at an index of the result: entry (r, c) of an
  M×K by K×N product is the sum over the contracted coordinate k of left (r, k) times right (k, c).
  Stated for any dimension numbers that contract the left operand's second axis with the right operand's
  first and have no batch axes, at the exact (extended-real) instance, where the product carries no rounding.
-/
import Idealize.ShloMosaic.Lib.ValueIdx
import Idealize.ShloMosaic.Lib.Pipeline.Value
import Idealize.ShloMosaic.PureOps.Ideal.Laws

noncomputable section

namespace Idealize.ShloMosaic.MatmulRead

open Idealize.ShloMosaic Idealize.ShloMosaic.ValueIdx
open scoped BigOperators

/-- Entry (r, c) of the product of an M×K block by a K×N block accumulated into zeros is
    `∑ k, left (r, k) * right (k, c)`. -/
theorem matmul_zero_apply {M K N : Nat} {φ₁ φ₂ : FTy}
    (lc : List (Fin 2)) (rc : List (Fin 2)) (ln : List (Fin 2)) (rn : List (Fin 2)) (lb rb : List (Fin 2))
    (h1 : lc = [1]) (h2 : rc = [0]) (h3 : ln = [0]) (h4 : rn = [1]) (h5 : lb = []) (h6 : rb = [])
    (wf : DotDims.WF ⟨2, ![M, K]⟩ ⟨2, ![K, N]⟩ ⟨2, ![M, N]⟩ lc rc ln rn lb rb)
    (prec : Option ContractPrecision)
    (lhs : FVec Ideal ⟨2, ![M, K]⟩ φ₁) (rhs : FVec Ideal ⟨2, ![K, N]⟩ φ₂) (j : (⟨2, ![M, N]⟩ : Shape).Idx) :
    FloatOps.matmul (⟨lc, rc, ln, rn, lb, rb, wf⟩ : DotDims ⟨2, ![M, K]⟩ ⟨2, ![K, N]⟩ ⟨2, ![M, N]⟩) prec lhs rhs
        (constant ⟨2, ![M, N]⟩ .f32 0x00000000#32) j
      = ∑ k : Fin K, lhs (ix2 (j 0) k) * rhs (ix2 k (j 1)) := by
  subst h1 h2 h3 h4 h5 h6
  set d : DotDims ⟨2, ![M, K]⟩ ⟨2, ![K, N]⟩ ⟨2, ![M, N]⟩ := ⟨[1], [0], [0], [1], [], [], wf⟩ with hd
  rw [Ideal.matmul_constant_zero_apply, ← Equiv.sum_comp (contrEquiv1 d K rfl rfl).symm]
  refine Finset.sum_congr rfl fun k _ => ?_
  have hk := contrEquiv1_symm_val d K rfl rfl k
  have el : d.lhsIdx j ((contrEquiv1 d K rfl rfl).symm k) = ix2 (j 0) k := funext fun a => Fin.ext (by
    match a with
    | ⟨0, _⟩ =>
      show (d.lhsIdx j _ 0).val = (j 0).val
      unfold DotDims.lhsIdx
      rw [dif_neg (show ¬(0 : Fin 2) ∈ d.lhsBatch by simp [hd]), dif_pos (show (0 : Fin 2) ∈ d.lhsNonContracting by simp [hd])]
      rfl
    | ⟨1, _⟩ => exact (d.lhsIdx_val_of_single (cl := 1) rfl j _).trans hk)
  have er : d.rhsIdx j ((contrEquiv1 d K rfl rfl).symm k) = ix2 k (j 1) := funext fun a => Fin.ext (by
    match a with
    | ⟨0, _⟩ => exact (d.rhsIdx_val_of_single (cr := 0) rfl j _).trans hk
    | ⟨1, _⟩ =>
      show (d.rhsIdx j _ 1).val = (j 1).val
      unfold DotDims.rhsIdx
      rw [dif_neg (show ¬(1 : Fin 2) ∈ d.rhsBatch by simp [hd]), dif_pos (show (1 : Fin 2) ∈ d.rhsNonContracting by simp [hd])]
      rfl)
  rw [el, er]
  rfl

/-- A column `[a, 1]` broadcast to `[a, b]` reads, at `(p, c)`, the column's entry `p`. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.MatmulRead

end
-- ==== Proof.Chunk.lean ====
/-
  What the kernel body computes for one chunk of 1024 rows, read entry by entry.

  The body loads the transposed weight block w (1024 × 128) and the bias row β (1 × 128) once, and for each
  of its two chunks loads the 1024 × 1024 blocks A¹, A² of the two inputs. It forms the products A¹·w and A²·w
  (accumulated from zero), adds the bias row to every row, applies tanh, multiplies the two results entry by
  entry, sums each row over its 128 lanes, applies the logistic function, and lays the 1024 row results out as
  an 8 × 128 tile in row-major order. So tile entry (p, q) is the score of chunk row r = 128·p + q:
      tile(p, q) = score( A¹[r, ·], A²[r, ·], w, β[0, ·] ).
  Narrowing a value to half precision before the product is the identity on extended reals, and the casts of
  the weight and bias blocks to their own shapes are identities, so none of them appears in the result.
-/
import proofs.«176292_j88802743812576_2_alg».proof.Proof.Gen.KernelIdeal.Skeleton
import proofs.«176292_j88802743812576_2_alg».proof.Proof.Score
import proofs.«176292_j88802743812576_2_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Chunk

open Cert.KernelIdeal Cert.KernelIdeal.Gen Idealize.ShloMosaic Idealize.ShloMosaic.ValueIdx
open scoped BigOperators

/-- Entry (r, j) of the product of a 1024 × 1024 input block with the weight block, accumulated from zero:
    the sum over the contracted coordinate k of A[r, k] · w[k, j]. -/
theorem product_entry (a : FVec Ideal S1024x1024 .f32) (wt : FVec Ideal S1024x128 .f32) (r : Fin 1024) (j : Fin 128) :
    matmul dot_S1024x1024_S1024x128_S1024x128_1_0_0_1_n_n none (truncf .bf16 a bitsLt_bf16_f32) (k0_pay1 (F := Ideal) wt)
        (constant (F := Ideal) S1024x128 .f32 0x00000000#32) (ix2 r j)
      = ∑ k : Fin 1024, a (ix2 r k) * wt (ix2 k j) := by
  refine (MatmulRead.matmul_zero_apply (M := 1024) (K := 1024) (N := 128) [1] [0] [0] [1] [] [] rfl rfl rfl rfl rfl rfl
    dot_S1024x1024_S1024x128_S1024x128_1_0_0_1_n_n_wf none _ _ (ix2 r j)).trans ?_
  refine Finset.sum_congr rfl fun k _ => ?_
  show a (ix2 r k) * k0_pay1 (F := Ideal) wt (ix2 k j) = a (ix2 r k) * wt (ix2 k j)
  unfold k0_pay1
  rw [shapeCast_self]
  rfl

/-- Entry (r, j) of one squashed projection: tanh of the product entry plus the bias row's entry j. -/
theorem hidden_entry (a : FVec Ideal S1024x1024 .f32) (wt : FVec Ideal S1024x128 .f32) (bias : FVec Ideal S1x128 .f32)
    (r : Fin 1024) (j : Fin 128) :
    tanh (addf (matmul dot_S1024x1024_S1024x128_S1024x128_1_0_0_1_n_n none (truncf .bf16 a bitsLt_bf16_f32) (k0_pay1 (F := Ideal) wt)
          (constant (F := Ideal) S1024x128 .f32 0x00000000#32))
        (broadcastTo S1024x128 (k0_pay2 (F := Ideal) bias) broadcasts_S1x128_S1024x128)) (ix2 r j)
      = Score.hidden (fun k => a (ix2 r k)) (fun k j => wt (ix2 k j)) (fun j => bias (ix2 (0 : Fin 1) j)) j := by
  show Ideal.tanh (matmul dot_S1024x1024_S1024x128_S1024x128_1_0_0_1_n_n none (truncf .bf16 a bitsLt_bf16_f32) (k0_pay1 (F := Ideal) wt)
          (constant (F := Ideal) S1024x128 .f32 0x00000000#32) (ix2 r j)
        + broadcastTo S1024x128 (k0_pay2 (F := Ideal) bias) broadcasts_S1x128_S1024x128 (ix2 r j)) = _
  rw [product_entry, broadcastTo_1b_ab_apply]
  unfold k0_pay2
  rw [shapeCast_self]
  rfl

/-- Tile entry (p, q) of the first chunk's result is the score of chunk row r = 128·p + q. -/
theorem chunk_entry (wt : FVec Ideal S1024x128 .f32) (bias : FVec Ideal S1x128 .f32) (a1 a2 : FVec Ideal S1024x1024 .f32)
    (p : Fin 8) (q : Fin 128) (r : Fin 1024) (hr : r.val = p.val * 128 + q.val) :
    k0_pay3 (F := Ideal) wt bias a1 a2 (ix2 p q)
      = Score.score (fun k => a1 (ix2 r k)) (fun k => a2 (ix2 r k)) (fun k j => wt (ix2 k j)) (fun j => bias (ix2 (0 : Fin 1) j)) := by
  unfold k0_pay3
  refine (shapeCast_apply _ shapeCasts_S1024_S8x128 (ix2 p q) (ix1 r) ?_).trans ?_
  · rw [Shape.rowMajor_val_one, Shape.rowMajor_val_two]
    exact hr
  unfold Score.score
  refine congrArg Ideal.logistic ?_
  refine (Ideal.multiReduction_add_single _ 0x00000000#32 reduces_S1024x128_S1024 (.inl rfl) rfl (ix1 r)).trans ?_
  refine Finset.sum_congr rfl fun (j : Fin 128) _ => ?_
  have e : reduces_S1024x128_S1024.lift (ix1 r) j = ix2 r j :=
    funext fun a => Fin.ext (by match a with | ⟨0, _⟩ => rfl | ⟨1, _⟩ => rfl)
  rw [e]
  exact congrArg₂ (· * ·) (hidden_entry a1 wt bias r j) (hidden_entry a2 wt bias r j)

/-- The second chunk's result is the same function of its own loads. -/
theorem second_chunk_eq (wt : FVec Ideal S1024x128 .f32) (bias : FVec Ideal S1x128 .f32) (a1 a2 : FVec Ideal S1024x1024 .f32) :
    k0_pay4 (F := Ideal) wt bias a1 a2 = k0_pay3 (F := Ideal) wt bias a1 a2 := rfl

end Cert.KernelIdeal.Chunk

end
-- ==== Proof.Tile.lean ====
/-
  What the kernel body leaves in its 16 × 128 output block, as one function of the blocks it loads.

  The body handles its 2048 block rows as two chunks of 1024 and stores each chunk's 8 × 128 tile of results:
  the first chunk's in block rows 0–7, the second's in block rows 8–15. Row-major, entry (y₀, y₁) of the output
  block therefore belongs to block row 128·y₀ + y₁ of the inputs, whichever chunk that row lies in:
      block(y₀, y₁) = score( X¹[128·y₀ + y₁, ·], X²[128·y₀ + y₁, ·], w, β[0, ·] ).
  The two stores are disjoint and together cover the block, so the block is this function everywhere.
-/
import proofs.«176292_j88802743812576_2_alg».proof.Proof.Gen.KernelIdeal.Frame
import proofs.«176292_j88802743812576_2_alg».proof.Proof.Chunk

noncomputable section

namespace Cert.KernelIdeal.Tile

open Cert.KernelIdeal Cert.KernelIdeal.Gen Idealize.ShloMosaic Idealize.ShloMosaic.ValueIdx

/-- Both coordinates of the offset (0, 0) are zero. -/
theorem zero_offsets : (![0, 0] : Fin 2 → Nat) = fun _ => 0 := funext fun a => by fin_cases a <;> rfl

/-- The block row of the inputs that entry y of the output block is computed from: 128·y₀ + y₁. -/
def rowOf (y : S16x128.Idx) : Fin 2048 :=
  ⟨(y 0).val * 128 + (y 1).val, by
    have h0 : (y 0).val < 16 := (y 0).isLt
    have h1 : (y 1).val < 128 := (y 1).isLt
    omega⟩

/-- The output block as a function of the two input blocks, the weight block and the bias row. -/
def tile (x0 x1 : Vec Ideal S2048x1024 .f32) (wt : Vec Ideal S1024x128 .f32) (bias : Vec Ideal S1x128 .f32) :
    Vec Ideal S16x128 .f32 :=
  fun y => Score.score (fun k => x0 (ix2 (rowOf y) k)) (fun k => x1 (ix2 (rowOf y) k)) (fun k j => wt (ix2 k j))
    (fun j => bias (ix2 (0 : Fin 1) j))

/-- Row r of the first chunk's load is block row r. -/
theorem ld_first (x : Vec Ideal S2048x1024 .f32) (r k : Fin 1024) (R : Fin 2048) (hR : R.val = r.val) :
    View.ld x r0_2 (ix2 r k) = x (ix2 R k) := by
  refine congrArg x (funext fun a => Fin.ext ?_)
  match a with
  | ⟨0, _⟩ => show 0 + 1 * r.val = R.val; omega
  | ⟨1, _⟩ => show 0 + 1 * k.val = k.val; omega

/-- Row r of the second chunk's load is block row 1024 + r. -/
theorem ld_second (x : Vec Ideal S2048x1024 .f32) (r k : Fin 1024) (R : Fin 2048) (hR : R.val = 1024 + r.val) :
    View.ld x r0_4 (ix2 r k) = x (ix2 R k) := by
  refine congrArg x (funext fun a => Fin.ext ?_)
  match a with
  | ⟨0, _⟩ => show 1024 + 1 * r.val = R.val; omega
  | ⟨1, _⟩ => show 0 + 1 * k.val = k.val; omega

/-- The first store's payload is the block function on block rows 0–7. -/
theorem first_piece (x0 x1 : Vec Ideal S2048x1024 .f32) (wt : Vec Ideal S1024x128 .f32) (bias : Vec Ideal S1x128 .f32)
    (x : S8x128.Idx) :
    k0_pay3 (F := Ideal) (View.ld wt r0_0) (View.ld bias r0_1) (View.ld x0 r0_2) (View.ld x1 r0_2) x
      = tile x0 x1 wt bias (r0_3.emb x) := by
  obtain ⟨p, q, rfl⟩ : ∃ (p : Fin 8) (q : Fin 128), x = ix2 p q := ⟨x 0, x 1, eq_ix2 x⟩
  have hp : p.val < 8 := p.isLt
  have hq : q.val < 128 := q.isLt
  refine (Chunk.chunk_entry (View.ld wt r0_0) (View.ld bias r0_1) (View.ld x0 r0_2) (View.ld x1 r0_2) p q
    ⟨p.val * 128 + q.val, by omega⟩ rfl).trans ?_
  have hy : (rowOf (r0_3.emb (ix2 p q))).val = p.val * 128 + q.val := by
    show (0 + 1 * p.val) * 128 + (0 + 1 * q.val) = p.val * 128 + q.val
    omega
  exact Score.score_congr (fun k => ld_first x0 _ k _ hy) (fun k => ld_first x1 _ k _ hy)
    (fun k j => congrFun (View.ld_unit_zero (S := S1024x128) zero_offsets _ wt) (ix2 k j))
    (fun j => congrFun (View.ld_unit_zero (S := S1x128) zero_offsets _ bias) (ix2 (0 : Fin 1) j))

/-- The second store's payload is the block function on block rows 8–15. -/
theorem second_piece (x0 x1 : Vec Ideal S2048x1024 .f32) (wt : Vec Ideal S1024x128 .f32) (bias : Vec Ideal S1x128 .f32)
    (x : S8x128.Idx) :
    k0_pay4 (F := Ideal) (View.ld wt r0_0) (View.ld bias r0_1) (View.ld x0 r0_4) (View.ld x1 r0_4) x
      = tile x0 x1 wt bias (r0_5.emb x) := by
  obtain ⟨p, q, rfl⟩ : ∃ (p : Fin 8) (q : Fin 128), x = ix2 p q := ⟨x 0, x 1, eq_ix2 x⟩
  have hp : p.val < 8 := p.isLt
  have hq : q.val < 128 := q.isLt
  refine (congrFun (Chunk.second_chunk_eq (View.ld wt r0_0) (View.ld bias r0_1) (View.ld x0 r0_4) (View.ld x1 r0_4)) (ix2 p q)).trans ?_
  refine (Chunk.chunk_entry (View.ld wt r0_0) (View.ld bias r0_1) (View.ld x0 r0_4) (View.ld x1 r0_4) p q
    ⟨p.val * 128 + q.val, by omega⟩ rfl).trans ?_
  have hy : (rowOf (r0_5.emb (ix2 p q))).val = 1024 + (p.val * 128 + q.val) := by
    show (8 + 1 * p.val) * 128 + (0 + 1 * q.val) = 1024 + (p.val * 128 + q.val)
    omega
  exact Score.score_congr (fun k => ld_second x0 _ k _ hy) (fun k => ld_second x1 _ k _ hy)
    (fun k j => congrFun (View.ld_unit_zero (S := S1024x128) zero_offsets _ wt) (ix2 k j))
    (fun j => congrFun (View.ld_unit_zero (S := S1x128) zero_offsets _ bias) (ix2 (0 : Fin 1) j))

/-- What the body leaves in the output block is the block function: each store's payload agrees with it on the
    store's rectangle, and the two rectangles cover the block. -/
theorem body_block (x0 x1 : Vec Ideal S2048x1024 .f32) (wt : Vec Ideal S1024x128 .f32) (bias : Vec Ideal S1x128 .f32) :
    out0_4 (F := Ideal) x0 x1 wt bias = tile x0 x1 wt bias := by
  funext y
  unfold out0_4
  refine View.canon_apply_of_pieces (tile x0 x1 wt bias) _ ?_ y (cover0_4 _ _ y)
  intro pc hpc x
  rcases List.mem_cons.mp hpc with rfl | hpc
  · exact second_piece x0 x1 wt bias x
  · rcases List.mem_cons.mp hpc with rfl | hpc
    · exact first_piece x0 x1 wt bias x
    · exact absurd hpc (List.not_mem_nil)

end Cert.KernelIdeal.Tile

end
-- ==== Proof.Blocks.lean ====
/-
  From blocks to the array: what the region's output array holds after the run.

  The grid has 32 points. At point t the two inputs' blocks are rows 2048·t … 2048·t + 2047 of the arrays, the
  weight and bias blocks are the whole (transposed) weight array and the whole bias row at every point, and the
  output block is rows 16·t … 16·t + 15 of the 512 × 128 output array. Entry (y₀, y₁) of that block is computed
  from input row 2048·t + 128·y₀ + y₁ = 128·(16·t + y₀) + y₁, so every point writes a block of ONE function of the
  arrays,
      sheet(i₀, i₁) = score( X¹[128·i₀ + i₁, ·], X²[128·i₀ + i₁, ·], w, β[0, ·] ),
  and, the 32 blocks tiling the output array (row i₀ lies in the block of point i₀ / 16), the array ends holding it.
-/
import proofs.«176292_j88802743812576_2_alg».proof.Proof.Gen.KernelIdeal.Frame
import proofs.«176292_j88802743812576_2_alg».proof.Proof.Tile

noncomputable section

namespace Cert.KernelIdeal.Blocks

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The batch row that entry i of the 512 × 128 output array belongs to: 128·i₀ + i₁. -/
def rowIdx (i : S512x128.Idx) : Fin 65536 :=
  ⟨(i 0).val * 128 + (i 1).val, by
    have h0 : (i 0).val < 512 := (i 0).isLt
    have h1 : (i 1).val < 128 := (i 1).isLt
    omega⟩

/-- The output array as a function of the four arrays the region works on. -/
def sheet (X1 X2 : Vec Ideal S65536x1024 .f32) (Wt : Vec Ideal S1024x128 .f32) (B : Vec Ideal S1x128 .f32) :
    Vec Ideal S512x128 .f32 :=
  fun i => Score.score (fun k => X1 (ix2 (rowIdx i) k)) (fun k => X2 (ix2 (rowIdx i) k)) (fun k j => Wt (ix2 k j))
    (fun j => B (ix2 (0 : Fin 1) j))

/-- The windows' block indices at every grid point: the inputs and the output advance with the point along their
    first axis, the weight and bias windows stay at the origin. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row r of the first input's block at point t is row 2048·t + r of the array. -/
theorem read_first (c : Dev nD) (t : Fin cfg0.N) (r : Fin 2048) (k : Fin 1024) (R : Fin 65536)
    (hR : R.val = t.val * 2048 + r.val) :
    iblk m c 0 t (ix2 r k) = V m c main_arg0 (ix2 R k) := by
  obtain ⟨e0, e1, -⟩ := index_facts t
  show V m c main_arg0 (((cfg0.win 0).blk t).view.emb (ix2 r k)) = V m c main_arg0 (ix2 R k)
  refine congrArg (V m c main_arg0) (funext fun a => Fin.ext ?_)
  match a with
  | ⟨0, _⟩ => show win0_0.index t (0 : Fin 2) * 2048 + 1 * r.val = R.val; omega
  | ⟨1, _⟩ => show win0_0.index t (1 : Fin 2) * 1024 + 1 * k.val = k.val; omega

/-- Row r of the second input's block at point t is row 2048·t + r of the array. -/
theorem read_second (c : Dev nD) (t : Fin cfg0.N) (r : Fin 2048) (k : Fin 1024) (R : Fin 65536)
    (hR : R.val = t.val * 2048 + r.val) :
    iblk m c 1 t (ix2 r k) = V m c main_arg1 (ix2 R k) := by
  obtain ⟨-, -, e2, e3, -⟩ := index_facts t
  show V m c main_arg1 (((cfg0.win 1).blk t).view.emb (ix2 r k)) = V m c main_arg1 (ix2 R k)
  refine congrArg (V m c main_arg1) (funext fun a => Fin.ext ?_)
  match a with
  | ⟨0, _⟩ => show win0_1.index t (0 : Fin 2) * 2048 + 1 * r.val = R.val; omega
  | ⟨1, _⟩ => show win0_1.index t (1 : Fin 2) * 1024 + 1 * k.val = k.val; omega

/-- The weight window's block is the whole transposed weight array at every point. -/
theorem read_weight (c : Dev nD) (t : Fin cfg0.N) (k : Fin 1024) (j : Fin 128) :
    iblk m c 2 t (ix2 k j) = V m c main_v0 (ix2 k j) := by
  obtain ⟨-, -, -, -, e4, e5, -⟩ := index_facts t
  show V m c main_v0 (((cfg0.win 2).blk t).view.emb (ix2 k j)) = V m c main_v0 (ix2 k j)
  refine congrArg (V m c main_v0) (funext fun a => Fin.ext ?_)
  match a with
  | ⟨0, _⟩ => show win0_2.index t (0 : Fin 2) * 1024 + 1 * k.val = k.val; omega
  | ⟨1, _⟩ => show win0_2.index t (1 : Fin 2) * 128 + 1 * j.val = j.val; omega

/-- The bias window's block is the whole bias row at every point. -/
theorem read_bias (c : Dev nD) (t : Fin cfg0.N) (j : Fin 128) :
    iblk m c 3 t (ix2 (0 : Fin 1) j) = V m c main_v1 (ix2 (0 : Fin 1) j) := by
  obtain ⟨-, -, -, -, -, -, e6, e7, -⟩ := index_facts t
  show V m c main_v1 (((cfg0.win 3).blk t).view.emb (ix2 (0 : Fin 1) j)) = V m c main_v1 (ix2 (0 : Fin 1) j)
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 128 + 1 * j.val = j.val; omega

/-- What point t writes back is block t of the sheet of the arrays as the region finds them. -/
theorem flushed_eq (c : Dev nD) (t : Fin cfg0.N) :
    (dats m 0 c).flushed 4 t
      = ((cfg0.win 4).blk t).view.read (Elt Ideal) (sheet (V m c main_arg0) (V m c main_arg1) (V m c main_v0) (V m c main_v1)) := by
  show (cfg0.win 4).cut (grid0.coords t) ((dats m 0 c).after 4 t) = _
  rw [after0_4, Tile.body_block (iblk m c 0 t) (iblk m c 1 t) (iblk m c 2 t) (iblk m c 3 t)]
  obtain ⟨-, -, -, -, -, -, -, -, e8, e9⟩ := index_facts t
  funext y
  show Tile.tile (iblk m c 0 t) (iblk m c 1 t) (iblk m c 2 t) (iblk m c 3 t) y
    = sheet (V m c main_arg0) (V m c main_arg1) (V m c main_v0) (V m c main_v1) (((cfg0.win 4).blk t).view.emb y)
  have hy0 : (y 0).val < 16 := (y 0).isLt
  have hy1 : (y 1).val < 128 := (y 1).isLt
  have hrow : (rowIdx (((cfg0.win 4).blk t).view.emb y)).val = t.val * 2048 + (Tile.rowOf y).val := by
    show (win0_4.index t (0 : Fin 2) * 16 + 1 * (y 0).val) * 128 + (win0_4.index t (1 : Fin 2) * 128 + 1 * (y 1).val)
      = t.val * 2048 + ((y 0).val * 128 + (y 1).val)
    rw [e8, e9]
    omega
  exact Score.score_congr
    (fun k => read_first m c t (Tile.rowOf y) k (rowIdx (((cfg0.win 4).blk t).view.emb y)) hrow)
    (fun k => read_second m c t (Tile.rowOf y) k (rowIdx (((cfg0.win 4).blk t).view.emb y)) hrow)
    (fun k j => read_weight m c t k j) (fun j => read_bias m c t j)

/-- An index of the output array is in point t's block iff each coordinate is in the block's range on its axis. -/
theorem mem_block (t : Fin cfg0.N) (i : S512x128.Idx) :
    i ∈ ((cfg0.win 4).blk t).view.set
      ↔ ∀ a : Fin 2, win0_4.index t a * S16x128.size a ≤ (i a).val ∧ (i a).val < win0_4.index t a * S16x128.size a + S16x128.size a := by
  show i ∈ ((View.whole main_v2).slice (win0_4.rect t)).set ↔ _
  rw [View.set_slice_whole, Rect.mem_set_unit]
  exact Iff.rfl

/-- Every index of the output array lies in the block of some point that writes back: row i₀ in that of
    point i₀ / 16. -/
theorem covered (i : S512x128.Idx) :
    ∃ t : Fin cfg0.N, (cfg0.win 4).flush t = true ∧ i ∈ ((cfg0.win 4).blk t).view.set := by
  have hi0 : (i 0).val < 512 := (i 0).isLt
  have hi1 : (i 1).val < 128 := (i 1).isLt
  obtain ⟨t, ht⟩ : ∃ t : Fin cfg0.N, t.val = (i 0).val / 16 :=
    ⟨⟨(i 0).val / 16, Nat.lt_of_lt_of_eq (by omega : (i 0).val / 16 < 32) N_0.symm⟩, rfl⟩
  obtain ⟨-, -, -, -, -, -, -, -, e8, e9⟩ := index_facts t
  refine ⟨t, flush0_4 t, ?_⟩
  rw [mem_block]
  intro a
  match a with
  | ⟨0, _⟩ =>
    show win0_4.index t (0 : Fin 2) * 16 ≤ (i 0).val ∧ (i 0).val < win0_4.index t (0 : Fin 2) * 16 + 16
    rw [e8, ht]
    omega
  | ⟨1, _⟩ =>
    show win0_4.index t (1 : Fin 2) * 128 ≤ (i 1).val ∧ (i 1).val < win0_4.index t (1 : Fin 2) * 128 + 128
    rw [e9]
    omega

/-- The output array after the run is the sheet of the arrays as the region finds them. -/
theorem final (c : Dev nD) :
    (dats m 0 c).arrAt 4 cfg0.N = sheet (V m c main_arg0) (V m c main_arg1) (V m c main_v0) (V m c main_v1) :=
  (dats m 0 c).arrAt_eq_of_cover 4 _ (fun t _ => flushed_eq m c t) covered

end Cert.KernelIdeal.Blocks

end
-- ==== Proof.KernelValue.lean ====
/-
  The idealized kernel's result as a function of its four arguments.

  Around the region the program does three things on whole arrays. Before it, the projection matrix W (128 × 1024)
  is transposed, so the weight array the region works on has w[k, j] = W[j, k], and the bias vector b (128) is
  recast as one row, β[0, j] = b[j]; the two inputs reach the region untouched. After it, the 512 × 128 output
  array is recast row-major as a vector of 65536 entries, so entry n of the result is entry (n / 128, n % 128) of
  the output array, which belongs to batch row 128·(n / 128) + n % 128 = n. Hence
      result[n] = score( x¹[n, ·], x²[n, ·], (k, j) ↦ W[j, k], b ).
-/
import proofs.«176292_j88802743812576_2_alg».proof.Proof.Gen.KernelIdeal.Frame
import proofs.«176292_j88802743812576_2_alg».proof.Proof.Blocks
import Idealize.ShloMosaic.Lib.StableHlo.Run

noncomputable section

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The weight array the region finds is the transpose of the projection matrix: entry (k, j) is W[j, k]. -/
theorem weight_found (c : Dev nD) (k : Fin 1024) (j : Fin 128) :
    V m c main_v0 (ix2 k j) = m ((c : Thread nD τ).loc main_arg2) (ix2 j k) := by
  have e : (V m c main_v0 : Vec Ideal S1024x128 .f32)
      = transpose S1024x128 [1, 0] (m ((c : Thread nD τ).loc main_arg2)) transposes_S128x1024_S1024x128_1_0 := by
    show StableHlo.after hostOps0 (fun b => m (c, b)) (Proc.devRef .tc main_v0) = _
    after_results
  exact (congrFun e (ix2 k j)).trans (transpose_ix2_apply _ _ k j)

/-- The bias row the region finds is the bias vector laid out as one row: entry (0, j) is b[j]. -/
theorem bias_found (c : Dev nD) (j : Fin 128) :
    V m c main_v1 (ix2 (0 : Fin 1) j) = m ((c : Thread nD τ).loc main_arg3) (ix1 j) := by
  have e : (V m c main_v1 : Vec Ideal S1x128 .f32)
      = shapeCast S1x128 (m ((c : Thread nD τ).loc main_arg3)) shapeCasts_S128_S1x128 := by
    show StableHlo.after hostOps0 (fun b => m (c, b)) (Proc.devRef .tc main_v1) = _
    after_results
    rfl
  exact (congrFun e (ix2 (0 : Fin 1) j)).trans (shapeCast_a_1a_apply _ _ (0 : Fin 1) j)

/-- The program's result after the region: the output array recast as a vector. -/
theorem tail_eq (c : Dev nD) :
    Pipeline.afterTail₀ cfgs (dats m) 0 (V0 m) [hostOps1] c main_v3
      = shapeCast S65536 ((dats m 0 c).arrAt 4 cfg0.N) shapeCasts_S512x128_S65536 := by
  unfold Pipeline.afterTail₀
  show StableHlo.after hostOps1 _ (Proc.devRef .tc main_v3) = _
  after_results
  have hw := Pipeline.withArrays_arr spec0 launch0.win.arr_inj c (V0 m c) (fun w => (dats m 0 c).arrAt w cfg0.N) 4
  funext i
  show shapeCast S65536 (Pipeline.withArrays spec0 c (V0 m c) (fun w => (dats m 0 c).arrAt w cfg0.N)
      (Proc.devRef .tc (Pipeline.arrRef spec0 4))) shapeCasts_S512x128_S65536 i = _
  rw [hw]

/-- An entry of the sheet of the arrays the region finds, read from the arguments: entry i belongs to batch row n
    when 128·i₀ + i₁ = n. -/
theorem sheet_entry (c : Dev nD) (i : S512x128.Idx) (n : Fin 65536) (hn : (Blocks.rowIdx i).val = n.val) :
    Blocks.sheet (V m c main_arg0) (V m c main_arg1) (V m c main_v0) (V m c main_v1) i
      = Score.rowResult (m ((c : Thread nD τ).loc main_arg0)) (m ((c : Thread nD τ).loc main_arg1))
          (m ((c : Thread nD τ).loc main_arg2)) (m ((c : Thread nD τ).loc main_arg3)) n := by
  have e : Blocks.rowIdx i = n := Fin.ext hn
  unfold Blocks.sheet Score.rowResult
  rw [e, V_main_arg0 m c, V_main_arg1 m c]
  exact Score.score_congr (fun _ => rfl) (fun _ => rfl) (fun k j => weight_found m c k j) (fun j => bias_found m c j)

/-- The program's result is the score of every batch row of the arguments. -/
theorem result_eq (c : Dev nD) :
    Pipeline.afterTail₀ cfgs (dats m) 0 (V0 m) [hostOps1] c main_v3
      = Score.result (m ((c : Thread nD τ).loc main_arg0)) (m ((c : Thread nD τ).loc main_arg1))
          (m ((c : Thread nD τ).loc main_arg2)) (m ((c : Thread nD τ).loc main_arg3)) := by
  rw [tail_eq, Blocks.final]
  funext i
  obtain ⟨n, rfl⟩ : ∃ n : Fin 65536, i = ix1 n := ⟨i 0, eq_ix1 i⟩
  have hn : n.val < 65536 := n.isLt
  refine (shapeCast_apply _ shapeCasts_S512x128_S65536 (ix1 n)
    (ix2 (⟨n.val / 128, by omega⟩ : Fin 512) (⟨n.val % 128, by omega⟩ : Fin 128)) ?_).trans ?_
  · rw [Shape.rowMajor_val_two, Shape.rowMajor_val_one]
    show n.val / 128 * 128 + n.val % 128 = n.val
    omega
  · refine sheet_entry m c _ n ?_
    show n.val / 128 * 128 + n.val % 128 = n.val
    omega

/-- Every weakly fair execution of the idealized kernel terminates with its result at the score of every batch row
    of the arguments, and the arguments unchanged. -/
theorem run : θ_run defs (onTc (τ := τ) (main (F := Ideal))) ⟨m, fun _ => 0, ρ⟩ (fun r => ∀ c : Dev nD,
      r.2.mem ((c.tc : Thread nD τ).loc main_v3)
        = Score.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.RefValue.lean ====
/-
  The idealized reference's result is the same function of the arguments.

  The reference transposes W, takes the two products x¹·Wᵀ and x²·Wᵀ as contractions over the 1024 features, adds
  the bias (broadcast down the rows), applies tanh, multiplies the two results entry by entry, sums each row over its
  128 columns starting from zero, and applies the logistic function written out as 1 / (1 + e^{-s}). Read at row n
  these are, operation by operation, the sums and functions the score is made of; the only things to identify are
  the index maps (row n and column j of a product, entry (k, j) of the transpose being W[j, k]) and the logistic
  function with its quotient form.
-/
import proofs.«176292_j88802743812576_2_alg».proof.Proof.Gen.ReferenceIdeal.Read
import proofs.«176292_j88802743812576_2_alg».proof.Proof.Score

noncomputable section

namespace Cert.ReferenceIdeal.RefValue

open Cert.ReferenceIdeal Cert.ReferenceIdeal.Gen Cert.ReferenceIdeal.Read Idealize.ShloMosaic Idealize.ShloMosaic.ValueIdx
open scoped BigOperators

/-- One squashed projection of the reference at row n, column j. -/
theorem hidden_first (x0 : Vec Ideal S65536x1024 .f32) (x2 : Vec Ideal S128x1024 .f32) (x3 : Vec Ideal S128 .f32)
    (n : Fin 65536) (j : Fin 128) :
    val_main_v5 (F := Ideal) x0 x2 x3 (ix2 n j)
      = Score.hidden (fun k => x0 (ix2 n k)) (fun k j => x2 (ix2 j k)) (fun j => x3 (ix1 j)) j := by
  rw [val_main_v5_apply, val_main_v4_apply, val_main_v1_apply, val_main_v3_apply, val_main_v2_apply]
  unfold Score.hidden
  show Ideal.tanh ((∑ k : Fin 1024, x0 (lidx_main_v1 (ix2 n j) k) * val_main_v0 (F := Ideal) x2 (ridx_main_v1 (ix2 n j) k))
      + x3 (idx_main_v2 (idx_main_v3 (ix2 n j)))) = _
  refine congrArg Ideal.tanh (congrArg₂ (· + ·) (Finset.sum_congr rfl fun k _ => ?_) ?_)
  · rw [val_main_v0_apply]
    refine congrArg₂ (· * ·) (congrArg x0 (funext fun a => Fin.ext ?_)) (congrArg x2 (funext fun a => Fin.ext ?_))
    · match a with
      | ⟨0, _⟩ => rfl
      | ⟨1, _⟩ => rfl
    · match a with
      | ⟨0, _⟩ => rfl
      | ⟨1, _⟩ => rfl
  · refine congrArg x3 (funext fun a => Fin.ext ?_)
    match a with
    | ⟨0, _⟩ => rfl

/-- The other squashed projection of the reference at row n, column j. -/
theorem hidden_second (x1 : Vec Ideal S65536x1024 .f32) (x2 : Vec Ideal S128x1024 .f32) (x3 : Vec Ideal S128 .f32)
    (n : Fin 65536) (j : Fin 128) :
    val_main_v11 (F := Ideal) x1 x2 x3 (ix2 n j)
      = Score.hidden (fun k => x1 (ix2 n k)) (fun k j => x2 (ix2 j k)) (fun j => x3 (ix1 j)) j := by
  rw [val_main_v11_apply, val_main_v10_apply, val_main_v7_apply, val_main_v9_apply, val_main_v8_apply]
  unfold Score.hidden
  show Ideal.tanh ((∑ k : Fin 1024, x1 (lidx_main_v7 (ix2 n j) k) * val_main_v6 (F := Ideal) x2 (ridx_main_v7 (ix2 n j) k))
      + x3 (idx_main_v8 (idx_main_v9 (ix2 n j)))) = _
  refine congrArg Ideal.tanh (congrArg₂ (· + ·) (Finset.sum_congr rfl fun k _ => ?_) ?_)
  · rw [val_main_v6_apply]
    refine congrArg₂ (· * ·) (congrArg x1 (funext fun a => Fin.ext ?_)) (congrArg x2 (funext fun a => Fin.ext ?_))
    · match a with
      | ⟨0, _⟩ => rfl
      | ⟨1, _⟩ => rfl
    · match a with
      | ⟨0, _⟩ => rfl
      | ⟨1, _⟩ => rfl
  · refine congrArg x3 (funext fun a => Fin.ext ?_)
    match a with
    | ⟨0, _⟩ => rfl

/-- The reference's result is the score of every batch row of the arguments. -/
theorem result_eq (x0 x1 : Vec Ideal S65536x1024 .f32) (x2 : Vec Ideal S128x1024 .f32) (x3 : Vec Ideal S128 .f32) :
    val_main_v19 (F := Ideal) x0 x1 x2 x3 = Score.result x0 x1 x2 x3 := by
  funext i
  obtain ⟨n, rfl⟩ : ∃ n : Fin 65536, i = ix1 n := ⟨i 0, eq_ix1 i⟩
  rw [val_main_v19_apply, val_main_v18_apply, val_main_cst_1_apply, val_main_v17_apply, val_main_v16_apply,
    val_main_cst_0_apply, val_main_v15_apply, val_main_v14_apply, val_main_v13_apply, val_main_cst_apply]
  show Ideal.div (Ideal.ofBits .f32 0x3F800000#32)
      (Ideal.ofBits .f32 0x3F800000#32
        + Ideal.exp (-(Ideal.ofBits .f32 0x00000000#32
            + ∑ k : Fin 128, val_main_v12 (F := Ideal) x0 x1 x2 x3 (idx_main_v13 (ix1 n) k)))) = _
  rw [Score.quotient_eq_logistic]
  unfold Score.result Score.rowResult Score.score
  refine congrArg Ideal.logistic (Finset.sum_congr rfl fun j _ => ?_)
  have ej : idx_main_v13 (ix1 n) j = ix2 n j :=
    funext fun a => Fin.ext (by match a with | ⟨0, _⟩ => rfl | ⟨1, _⟩ => rfl)
  rw [ej, val_main_v12_apply]
  exact congrArg₂ (· * ·) (hidden_first x0 x2 x3 n j) (hidden_second x1 x2 x3 n j)

end Cert.ReferenceIdeal.RefValue

end
-- ==== Proof.lean ====
/-
  A kernel that scores pairs of feature vectors against its plain reference, equal over the extended reals.

  Both programs take two batches x¹, x² of 65536 feature vectors of length 1024, a projection matrix W (128 × 1024)
  and a bias b (128), and return one number per batch row n:
      out[n] = σ( Σ_j tanh(Σ_k x¹[n,k]·W[j,k] + b[j]) · tanh(Σ_k x²[n,k]·W[j,k] + b[j]) ),   σ(s) = 1 / (1 + e^{-s}).
  The kernel walks the batch in 32 blocks of 2048 rows, each as two chunks of 1024, multiplying by the transposed
  matrix held whole, and writes its results as a 512 × 128 array that is then read row-major as a vector; the reference
  computes the same expression on whole arrays and spells σ as the quotient. Over the extended reals a change of float
  format is the identity, a matrix product accumulated from zero is the plain sum over the contracted index, and the
  logistic function is by definition that quotient, so both results are the one function `Score.result` of the arguments:
  the kernel's by reading each output block off the body's stores and the blocks off the grid (Chunk, Tile, Blocks,
  KernelValue), the reference's by reading its operations one at a time (RefValue). No step rearranges a sum or moves a
  factor across one, so the finiteness of the inputs is never used. The idealization rewrote nothing, so there is
  nothing to preserve; the three programs' runs are the generated frames and the reference's generated run.
-/
import proofs.«176292_j88802743812576_2_alg».proof.Defs
import proofs.«176292_j88802743812576_2_alg».proof.Proof.Gen.Kernel
import proofs.«176292_j88802743812576_2_alg».proof.Proof.Gen.Kernel.Skeleton
import proofs.«176292_j88802743812576_2_alg».proof.Proof.Gen.Kernel.Launch
import proofs.«176292_j88802743812576_2_alg».proof.Proof.Gen.Kernel.Points
import proofs.«176292_j88802743812576_2_alg».proof.Proof.Gen.Kernel.Frame
import proofs.«176292_j88802743812576_2_alg».proof.Proof.Gen.KernelIdeal
import proofs.«176292_j88802743812576_2_alg».proof.Proof.Gen.KernelIdeal.Skeleton
import proofs.«176292_j88802743812576_2_alg».proof.Proof.Gen.KernelIdeal.Launch
import proofs.«176292_j88802743812576_2_alg».proof.Proof.Gen.KernelIdeal.Points
import proofs.«176292_j88802743812576_2_alg».proof.Proof.Gen.KernelIdeal.Frame
import proofs.«176292_j88802743812576_2_alg».proof.Proof.Gen.ReferenceIdeal
import proofs.«176292_j88802743812576_2_alg».proof.Proof.Gen.ReferenceIdeal.Run
import proofs.«176292_j88802743812576_2_alg».proof.Proof.Gen.ReferenceIdeal.Read
import proofs.«176292_j88802743812576_2_alg».proof.Proof.Gen.Pre_finite_inputs
import proofs.«176292_j88802743812576_2_alg».proof.Proof.KernelValue
import proofs.«176292_j88802743812576_2_alg».proof.Proof.RefValue
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the score of every batch row of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
